-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S416x10000 : Shape := ⟨2, ![416, 10000]⟩
abbrev S416x128 : Shape := ⟨2, ![416, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S416x10000, .f32⟩
  | .local _ .vmem, ⟨3, _⟩ => ⟨S416x10000, .f32⟩
  | .local _ .vmem, ⟨4, _⟩ => ⟨S416x128, .f32⟩
  | .local _ .vmem, ⟨5, _⟩ => ⟨S416x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S416x10000_S416x10000_0_0 : ∀ a, (![0, 0] : Fin 2 → Nat) a + S416x10000.size a ≤ S416x10000.size a
  h_S416x10000 : 0 < S416x10000.numel
  inb_S416x128_S416x128_0_0 : ∀ a, (![0, 0] : Fin 2 → Nat) a + S416x128.size a ≤ S416x128.size a
  h_S416x128 : 0 < S416x128.numel
  dot_S10000x128_S128x128_S10000x128_1_0_0_1_n_n_wf : DotDims.WF S10000x128 S128x128 S10000x128 [1] [0] [0] [1] [] []
  dot_S416x10000_S10000x128_S416x128_1_0_0_1_n_n_wf : DotDims.WF S416x10000 S10000x128 S416x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S416x10000.size a < S10000x10000.size a
  hwx0_2 : ∀ i : grid0.Coords, EltTy.bits .f32 = 32 ∨ (Rect.unit (s := S10000x10000) (fun a => cc0_transform_2 i a * S416x10000.size a) (fun a => (Pipeline.Clip.of (cc0_transform_2 i a) (S416x10000.size a) (S10000x10000.size a)).extent (S416x10000.size a)) fun a => Pipeline.Clip.inb (Pipeline.Clip.ok_of (hstart0_2 i a))).WholeWords (EltTy.packing .f32)
  hwxs0_2 : ∀ i : grid0.Coords, EltTy.bits .f32 = 32 ∨ (Rect.unit (s := S416x10000) (fun _ => 0) (fun a => (Pipeline.Clip.of (cc0_transform_2 i a) (S416x10000.size a) (S10000x10000.size a)).extent (S416x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S416x128.size a < S10000x128.size a
  hwx0_3 : ∀ i : grid0.Coords, EltTy.bits .f32 = 32 ∨ (Rect.unit (s := S10000x128) (fun a => cc0_transform_3 i a * S416x128.size a) (fun a => (Pipeline.Clip.of (cc0_transform_3 i a) (S416x128.size a) (S10000x128.size a)).extent (S416x128.size a)) fun a => Pipeline.Clip.inb (Pipeline.Clip.ok_of (hstart0_3 i a))).WholeWords (EltTy.packing .f32)
  hwxs0_3 : ∀ i : grid0.Coords, EltTy.bits .f32 = 32 ∨ (Rect.unit (s := S416x128) (fun _ => 0) (fun a => (Pipeline.Clip.of (cc0_transform_3 i a) (S416x128.size a) (S10000x128.size a)).extent (S416x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S416x10000_S10000x128_S416x128_1_0_0_1_n_n : DotDims S416x10000 S10000x128 S416x128 where
  lhsContracting := [1]
  rhsContracting := [0]
  lhsNonContracting := [0]
  rhsNonContracting := [1]
  lhsBatch := []
  rhsBatch := []
  wf := dot_S416x10000_S10000x128_S416x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S416x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S416x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyBits.lean ====
/-
  The kernel body as a Hoare triple, for any float instance.

  The body has one branch, on "this is grid point 0". At point 0 it multiplies the two small operands
  (the feature matrix, 10000 x 128, by the weight matrix, 128 x 128) and stores the product H into the
  scratch buffer, which it keeps for all later points. At every point it then multiplies the current
  416-row block of the adjacency matrix by the scratch (H) and stores the entrywise maximum of that
  product and 0 into the output block.

  Every load and store goes through the whole buffer, so each buffer's contents after the body are
  the stored payload itself: no piecing together is needed.
-/
import proofs.«147178_g53772990545976_cont_sun_m_1082_16_alg».proof.Proof.Gen.Kernel.Frame
import proofs.«147178_g53772990545976_cont_sun_m_1082_16_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The branch condition of the body, as a proposition about the grid coordinate: "the point is point 0". -/
abbrev condFirst (i : grid0.Coords) : Prop :=
  (Scalar.cmpi .ne (Scalar.extui (Scalar.cmpi .eq (BitVec.ofNat 32 (i 0).val) 0#32)) 0#32) = 1#1

/-- The literal offsets `![0, 0]` are the zero offsets. -/
theorem zero_off : (![0, 0] : Fin 2 → Nat) = fun _ => 0 := funext fun a => by fin_cases a <;> rfl

/-- One store through the whole-shape rectangle, read back through the same view, is the stored payload:
    the rectangle holds every index, so nothing of the earlier contents is left. It holds for every shape. -/
theorem read_store_whole {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- AT POINT 0. The three input buffers hold `X0` (features), `X1` (weights), `X2` (adjacency block);
    the output buffer and the scratch hold anything. Afterwards the scratch holds the product
    `k0_pay1 X0 X1` and the output buffer `k0_pay2 X2 (k0_pay1 X0 X1)`; the inputs are untouched. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S416x10000 .f32) (harg3 : arg3.IsWhole) (arg4 : Memref sig .tc .vmem S416x128 .f32) (harg4 : arg4.IsWhole)
    (arg5 : Memref sig .tc .vmem S10000x128 .f32) (harg5 : arg5.IsWhole) (hc : condFirst i)
    (X0 : Vec F S10000x128 .f32) (X1 : Vec F S128x128 .f32) (X2 : Vec F S416x10000 .f32) (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ (∃ d, owns (c : Thread nD τ) arg5 fullShare d)
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X2 (k0_pay1 X0 X1)) ∗ owns (c : Thread nD τ) arg5 fullShare (k0_pay1 X0 X1)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%d5, %f5, -, H5⟩, Hk⟩
  obtain rfl := harg1.eq_unread hf0; obtain rfl := harg2.eq_unread hf1; obtain rfl := harg3.eq_unread hf2
  sl_exec (disch := exact hc)
  sl_step
  have hz := zero_off
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    rw [read_store_whole _ _ hz, View.readCov_unit_zero _ hz]
    simp only [View.readAt_eq_ld]
    rw [hf0, hf1, hf2, View.ld_unit_zero (S := S416x10000) hz, View.ld_unit_zero (S := S10000x128) hz,
      View.ld_unit_zero (S := S128x128) hz]
  · iexists _; isplitr
    swap; · iexact H5
    ipureintro
    sl_unfold_run_names
    rw [read_store_whole _ _ hz]
    simp only [View.readAt_eq_ld]
    rw [hf0, hf1, View.ld_unit_zero (S := S10000x128) hz, View.ld_unit_zero (S := S128x128) hz]

/-- AT A LATER POINT. The scratch holds `S` (what point 0 left there) and is only read; the output
    buffer ends holding `k0_pay2 X2 S`. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S416x10000 .f32) (harg3 : arg3.IsWhole) (arg4 : Memref sig .tc .vmem S416x128 .f32) (harg4 : arg4.IsWhole)
    (arg5 : Memref sig .tc .vmem S10000x128 .f32) (harg5 : arg5.IsWhole) (hc : ¬condFirst i)
    (X0 : Vec F S10000x128 .f32) (X1 : Vec F S128x128 .f32) (X2 : Vec F S416x10000 .f32) (S : Vec F S10000x128 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ owns (c : Thread nD τ) arg5 fullShare S
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X2 S) ∗ owns (c : Thread nD τ) arg5 fullShare S) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  obtain rfl := harg1.eq_unread hf0; obtain rfl := harg2.eq_unread hf1; obtain rfl := harg3.eq_unread hf2
  obtain rfl := harg5.eq_unread hf5
  sl_exec (disch := exact hc)
  sl_step
  have hz := zero_off
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    rw [read_store_whole _ _ hz]
    simp only [View.readAt_eq_ld]
    rw [hf2, hf5, View.ld_unit_zero (S := S416x10000) hz, View.ld_unit_zero (S := S10000x128) hz]
  · iexists _; isplitr; · ipureintro; exact hf5
    iexact H5

/-- AT ANY POINT, values forgotten: the inputs are untouched, and the output buffer and the scratch end
    at some contents. Enough for a claim that only says the arguments are unchanged. -/
theorem run_any (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S416x10000 .f32) (harg3 : arg3.IsWhole) (arg4 : Memref sig .tc .vmem S416x128 .f32) (harg4 : arg4.IsWhole)
    (arg5 : Memref sig .tc .vmem S10000x128 .f32) (harg5 : arg5.IsWhole)
    (X0 : Vec F S10000x128 .f32) (X1 : Vec F S128x128 .f32) (X2 : Vec F S416x10000 .f32) (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ (∃ d, owns (c : Thread nD τ) arg5 fullShare d)
        ∗ (iprop(owns (c : Thread nD τ) arg1 fullShare X0 ∗ owns (c : Thread nD τ) arg2 fullShare X1 ∗ owns (c : Thread nD τ) arg3 fullShare X2
            ∗ (∃ d, owns (c : Thread nD τ) arg4 fullShare d) ∗ (∃ d, owns (c : Thread nD τ) arg5 fullShare d)) -∗ K ⟨⟩))
      ⊢ wp frame (wpE (defs₀ (F := F)) Variants.none c none) E (cc0__gcn_kernel i arg1 harg1 arg2 harg2 arg3 harg3 arg4 harg4 arg5 harg5) K := by
  by_cases hc : condFirst i
  · iintro ⟨H0, H1, H2, H3, H5, Hk⟩
    iapply (run_first (F := F) c i arg1 harg1 arg2 harg2 arg3 harg3 arg4 harg4 arg5 harg5 hc X0 X1 X2 E K)
    isplitl [H0]; · iexact H0
    isplitl [H1]; · iexact H1
    isplitl [H2]; · iexact H2
    isplitl [H3]; · iexact H3
    isplitl [H5]; · iexact H5
    iintro ⟨H0, H1, H2, H3, H5⟩
    iapply Hk
    isplitl [H0]; · iexact H0
    isplitl [H1]; · iexact H1
    isplitl [H2]; · iexact H2
    isplitl [H3]; · iexists _; iexact H3
    iexists _; iexact H5
  · iintro ⟨H0, H1, H2, H3, ⟨%S, H5⟩, Hk⟩
    iapply (run_later (F := F) c i arg1 harg1 arg2 harg2 arg3 harg3 arg4 harg4 arg5 harg5 hc X0 X1 X2 S E K)
    isplitl [H0]; · iexact H0
    isplitl [H1]; · iexact H1
    isplitl [H2]; · iexact H2
    isplitl [H3]; · iexact H3
    isplitl [H5]; · iexact H5
    iintro ⟨H0, H1, H2, H3, H5⟩
    iapply Hk
    isplitl [H0]; · iexact H0
    isplitl [H1]; · iexact H1
    isplitl [H2]; · iexact H2
    isplitl [H3]; · iexists _; iexact H3
    iexists _; iexact H5

end Cert.Kernel.Hand

end
-- ==== Proof.FrameBits.lean ====
/-
  The frame of the word-level program: it runs to the end, faults nowhere, and leaves its three argument
  arrays as they were.

  For this claim nothing about the computed values is needed, so the output window is forgotten: its
  staging buffer is handed to the body at any contents and taken back at any contents, and the scratch is
  kept at "some contents" throughout. What is tracked is only that the three input buffers are read and
  never written: the two small operands sit whole in their buffers at every point, and the adjacency
  buffer holds the current 416-row block on the rows that lie inside the matrix (the last block has only
  16 such rows; the rows past the end hold words nothing names, and the body does not change them).
-/
import proofs.«147178_g53772990545976_cont_sun_m_1082_16_alg».proof.Proof.BodyBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand as a memref. -/
abbrev scM : Memref sig .tc .vmem S10000x128 .f32 := Memref.whole cc0_scratch0

/-- Between points the core holds its one scratch buffer at some contents and its generator register at
    some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; rfl

/-- The output window (window 3) is forgotten. -/
def forgets : Fin 4 → Bool := fun w => w.val == 3

/-- The proof data: the arrays as launched; after the body each small operand's buffer at its block, the
    adjacency buffer at its block on the rows inside the matrix, the output forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Scalar.ofBits .f32 0#32) (iblk m c 2 t)
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) (fun _ => Scalar.ofBits .f32 0#32) (iblk m c 2 t) := by
  dsimp only [dats]

/-- The two small operands are fetched once and found whole at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The adjacency block is fetched at every point: its buffer holds the block on the rows inside the
    matrix and whatever it held (`d`) elsewhere. -/
theorem before0_2 (c : Dev nD) (t : Fin cfg0.N) (d) :
    (dats m 0 c).before 2 t d = win0_2.fill (grid0.coords t) d (iblk m c 2 t) := by
  unfold Dat.before; rw [if_pos (fetch0_2 t)]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        ((cfg0.win 2).fill (grid0.coords t) d ((cfg0.win 2).cut (grid0.coords t) ((dats m 0 c).after 2 t))))
    ∗ (∃ X, owns (c : Thread nD τ) (st0_3 t) fullShare X))

/-- The body at any point, values forgotten. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  iintro ⟨⟨HS, Hg⟩, Ho, ⟨%d0, H0⟩, ⟨%d1, H1⟩, ⟨%d2, H2⟩, H3⟩
  rw [before0_0 m c t d0, before0_1 m c t d1, before0_2 m c t d2]
  iapply (run_any (F := F) c (grid0.coords t) _ _ _ _ _ _ _ _ _ _ (iblk m c 0 t) (iblk m c 1 t)
    (win0_2.fill (grid0.coords t) d2 (iblk m c 2 t)) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg]
  · isplitl [HS]; · iexact HS
    iexact Hg
  isplitl [Ho]; · iexact Ho
  isplitl [H0]; · rw [after0_0]; try iexact H0
  isplitl [H1]; · rw [after0_1]; try iexact H1
  isplitl [H2]
  · iexists d2
    rw [after0_2]
    change _ ⊢ owns (c : Thread nD τ) (st0_2 t) fullShare (win0_2.fill (grid0.coords t) d2 (win0_2.cut (grid0.coords t) (win0_2.fill (grid0.coords t) (fun _ => Scalar.ofBits .f32 0#32) (iblk m c 2 t))))
    rw [win0_2.cut_fill]; try iexact H2
  iexact H3

/-- The library's body obligation, at every point, the output window forgotten. -/
theorem body_obligation (c : Dev nD) :
    BodyObligationLoose (dats (F := F) m 0 c) (defs₀ (F := F)) Variants.none () Set.univ forgets := fun t => by
  rw [bigSep_W0, bigSep_W0]
  exact sound_body m c t

set_option backward.isDefEq.respectTransparency.types false in
/-- Every weakly fair execution terminates; every input array ends as it was; nothing is said of the output. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame claim's post, at any float instance: the three argument arrays end unchanged (window 0 stages
    argument 0, window 2 argument 1, window 1 argument 2). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 2 rfl _) _) ((h c).1 2)).trans ((A_eq m c 2).trans (V_main_arg1 m c)),
     (Eq.mp (congrFun (((dats m 0 c).toRForget forgets).ArrAt_in 1 rfl _) _) ((h c).1 1)).trans ((A_eq m c 1).trans (V_main_arg2 m c))⟩)
    (run_main m ρ)

end Cert.Kernel.Hand

end
-- ==== Proof.BodyIdeal.lean ====
/-
  The kernel body as a Hoare triple, for any float instance.

  The body has one branch, on "this is grid point 0". At point 0 it multiplies the two small operands
  (the feature matrix, 10000 x 128, by the weight matrix, 128 x 128) and stores the product H into the
  scratch buffer, which it keeps for all later points. At every point it then multiplies the current
  416-row block of the adjacency matrix by the scratch (H) and stores the entrywise maximum of that
  product and 0 into the output block.

  Every load and store goes through the whole buffer, so each buffer's contents after the body are
  the stored payload itself: no piecing together is needed.
-/
import proofs.«147178_g53772990545976_cont_sun_m_1082_16_alg».proof.Proof.Gen.KernelIdeal.Frame
import proofs.«147178_g53772990545976_cont_sun_m_1082_16_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The branch condition of the body, as a proposition about the grid coordinate: "the point is point 0". -/
abbrev condFirst (i : grid0.Coords) : Prop :=
  (Scalar.cmpi .ne (Scalar.extui (Scalar.cmpi .eq (BitVec.ofNat 32 (i 0).val) 0#32)) 0#32) = 1#1

/-- The literal offsets `![0, 0]` are the zero offsets. -/
theorem zero_off : (![0, 0] : Fin 2 → Nat) = fun _ => 0 := funext fun a => by fin_cases a <;> rfl

/-- One store through the whole-shape rectangle, read back through the same view, is the stored payload:
    the rectangle holds every index, so nothing of the earlier contents is left. It holds for every shape. -/
theorem read_store_whole {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- AT POINT 0. The three input buffers hold `X0` (features), `X1` (weights), `X2` (adjacency block);
    the output buffer and the scratch hold anything. Afterwards the scratch holds the product
    `k0_pay1 X0 X1` and the output buffer `k0_pay2 X2 (k0_pay1 X0 X1)`; the inputs are untouched. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S416x10000 .f32) (harg3 : arg3.IsWhole) (arg4 : Memref sig .tc .vmem S416x128 .f32) (harg4 : arg4.IsWhole)
    (arg5 : Memref sig .tc .vmem S10000x128 .f32) (harg5 : arg5.IsWhole) (hc : condFirst i)
    (X0 : Vec F S10000x128 .f32) (X1 : Vec F S128x128 .f32) (X2 : Vec F S416x10000 .f32) (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ (∃ d, owns (c : Thread nD τ) arg5 fullShare d)
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X2 (k0_pay1 X0 X1)) ∗ owns (c : Thread nD τ) arg5 fullShare (k0_pay1 X0 X1)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%d5, %f5, -, H5⟩, Hk⟩
  obtain rfl := harg1.eq_unread hf0; obtain rfl := harg2.eq_unread hf1; obtain rfl := harg3.eq_unread hf2
  sl_exec (disch := exact hc)
  sl_step
  have hz := zero_off
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    rw [read_store_whole _ _ hz, View.readCov_unit_zero _ hz]
    simp only [View.readAt_eq_ld]
    rw [hf0, hf1, hf2, View.ld_unit_zero (S := S416x10000) hz, View.ld_unit_zero (S := S10000x128) hz,
      View.ld_unit_zero (S := S128x128) hz]
  · iexists _; isplitr
    swap; · iexact H5
    ipureintro
    sl_unfold_run_names
    rw [read_store_whole _ _ hz]
    simp only [View.readAt_eq_ld]
    rw [hf0, hf1, View.ld_unit_zero (S := S10000x128) hz, View.ld_unit_zero (S := S128x128) hz]

/-- AT A LATER POINT. The scratch holds `S` (what point 0 left there) and is only read; the output
    buffer ends holding `k0_pay2 X2 S`. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S416x10000 .f32) (harg3 : arg3.IsWhole) (arg4 : Memref sig .tc .vmem S416x128 .f32) (harg4 : arg4.IsWhole)
    (arg5 : Memref sig .tc .vmem S10000x128 .f32) (harg5 : arg5.IsWhole) (hc : ¬condFirst i)
    (X0 : Vec F S10000x128 .f32) (X1 : Vec F S128x128 .f32) (X2 : Vec F S416x10000 .f32) (S : Vec F S10000x128 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ owns (c : Thread nD τ) arg5 fullShare S
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X2 S) ∗ owns (c : Thread nD τ) arg5 fullShare S) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  obtain rfl := harg1.eq_unread hf0; obtain rfl := harg2.eq_unread hf1; obtain rfl := harg3.eq_unread hf2
  obtain rfl := harg5.eq_unread hf5
  sl_exec (disch := exact hc)
  sl_step
  have hz := zero_off
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    rw [read_store_whole _ _ hz]
    simp only [View.readAt_eq_ld]
    rw [hf2, hf5, View.ld_unit_zero (S := S416x10000) hz, View.ld_unit_zero (S := S10000x128) hz]
  · iexists _; isplitr; · ipureintro; exact hf5
    iexact H5

/-- AT ANY POINT, values forgotten: the inputs are untouched, and the output buffer and the scratch end
    at some contents. Enough for a claim that only says the arguments are unchanged. -/
theorem run_any (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S416x10000 .f32) (harg3 : arg3.IsWhole) (arg4 : Memref sig .tc .vmem S416x128 .f32) (harg4 : arg4.IsWhole)
    (arg5 : Memref sig .tc .vmem S10000x128 .f32) (harg5 : arg5.IsWhole)
    (X0 : Vec F S10000x128 .f32) (X1 : Vec F S128x128 .f32) (X2 : Vec F S416x10000 .f32) (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ (∃ d, owns (c : Thread nD τ) arg5 fullShare d)
        ∗ (iprop(owns (c : Thread nD τ) arg1 fullShare X0 ∗ owns (c : Thread nD τ) arg2 fullShare X1 ∗ owns (c : Thread nD τ) arg3 fullShare X2
            ∗ (∃ d, owns (c : Thread nD τ) arg4 fullShare d) ∗ (∃ d, owns (c : Thread nD τ) arg5 fullShare d)) -∗ K ⟨⟩))
      ⊢ wp frame (wpE (defs₀ (F := F)) Variants.none c none) E (cc0__gcn_kernel i arg1 harg1 arg2 harg2 arg3 harg3 arg4 harg4 arg5 harg5) K := by
  by_cases hc : condFirst i
  · iintro ⟨H0, H1, H2, H3, H5, Hk⟩
    iapply (run_first (F := F) c i arg1 harg1 arg2 harg2 arg3 harg3 arg4 harg4 arg5 harg5 hc X0 X1 X2 E K)
    isplitl [H0]; · iexact H0
    isplitl [H1]; · iexact H1
    isplitl [H2]; · iexact H2
    isplitl [H3]; · iexact H3
    isplitl [H5]; · iexact H5
    iintro ⟨H0, H1, H2, H3, H5⟩
    iapply Hk
    isplitl [H0]; · iexact H0
    isplitl [H1]; · iexact H1
    isplitl [H2]; · iexact H2
    isplitl [H3]; · iexists _; iexact H3
    iexists _; iexact H5
  · iintro ⟨H0, H1, H2, H3, ⟨%S, H5⟩, Hk⟩
    iapply (run_later (F := F) c i arg1 harg1 arg2 harg2 arg3 harg3 arg4 harg4 arg5 harg5 hc X0 X1 X2 S E K)
    isplitl [H0]; · iexact H0
    isplitl [H1]; · iexact H1
    isplitl [H2]; · iexact H2
    isplitl [H3]; · iexact H3
    isplitl [H5]; · iexact H5
    iintro ⟨H0, H1, H2, H3, H5⟩
    iapply Hk
    isplitl [H0]; · iexact H0
    isplitl [H1]; · iexact H1
    isplitl [H2]; · iexact H2
    isplitl [H3]; · iexists _; iexact H3
    iexists _; iexact H5

end Cert.KernelIdeal.Hand

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.Spec.lean ====
/-
  The function both programs compute, index by index, on the extended reals.

  Write X for the 10000 x 128 feature matrix, A for the 10000 x 10000 adjacency matrix and W for the
  128 x 128 weight matrix. First H = X · W, entry (k, c) being the sum over j of X (k, j) · W (j, c).
  Then the result at (r, c) is the maximum of 0 and the sum over k of A (r, k) · H (k, c): one row of A
  against one column of H. The entry at row r therefore depends on row r of A only, which is what lets a
  block of 416 rows of A be processed alone, and lets rows of a block that lie past the matrix's end be
  ignored.

  The zero is kept as the f32 zero word read at the extended reals; it is the same word in both programs
  and is never evaluated.
-/
import Idealize.ShloMosaic.PureOps.Ideal
import Idealize.ShloMosaic.Lib.ValueIdx

noncomputable section

open scoped BigOperators

namespace Cert.Gcn

open Idealize.ShloMosaic Idealize.ShloMosaic.ValueIdx

/-- The f32 zero word, read at the extended reals. -/
abbrev zeroW : EReal := Ideal.ofBits .f32 0x00000000#32

/-- H = X · W: entry (k, c) is the sum over j of X (k, j) · W (j, c). -/
def hidden (X : (⟨2, ![10000, 128]⟩ : Shape).Idx → EReal) (W : (⟨2, ![128, 128]⟩ : Shape).Idx → EReal) :
    (⟨2, ![10000, 128]⟩ : Shape).Idx → EReal :=
  fun i => ∑ j : Fin 128, X (ix2 (i 0) j) * W (ix2 j (i 1))

/-- One output entry from one row `a` of the adjacency matrix and column `c` of `Hs`:
    the maximum of the row-by-column sum and zero. -/
def rowRelu (a : Fin 10000 → EReal) (Hs : (⟨2, ![10000, 128]⟩ : Shape).Idx → EReal) (c : Fin 128) : EReal :=
  max (∑ k : Fin 10000, a k * Hs (ix2 k c)) zeroW

/-- The whole result: entry (r, c) is `rowRelu` of row r of A against column c of H = X · W. -/
def result (X : (⟨2, ![10000, 128]⟩ : Shape).Idx → EReal) (A : (⟨2, ![10000, 10000]⟩ : Shape).Idx → EReal)
    (W : (⟨2, ![128, 128]⟩ : Shape).Idx → EReal) : (⟨2, ![10000, 128]⟩ : Shape).Idx → EReal :=
  fun i => rowRelu (fun k => A (ix2 (i 0) k)) (hidden X W) (i 1)

/-- `rowRelu` reads its row only through its entries: rows that agree entry by entry give the same value. -/
theorem rowRelu_congr {a a' : Fin 10000 → EReal} (h : ∀ k, a k = a' k)
    (Hs : (⟨2, ![10000, 128]⟩ : Shape).Idx → EReal) (c : Fin 128) : rowRelu a Hs c = rowRelu a' Hs c := by
  rw [show a = a' from funext h]

end Cert.Gcn

end
-- ==== Proof.KPay.lean ====
/-
  The kernel's two stored values, read at an index on the extended reals.

  The value stored into the scratch at grid point 0 is the product H = X · W. The value stored into the
  output block at every point is, at row r and column c of the block, the maximum of zero and the sum
  over k of (adjacency block) (r, k) · (scratch) (k, c). Both matrix products are into a zero accumulator
  with the plain dimension numbers, so each is the textbook sum.
-/
import proofs.«147178_g53772990545976_cont_sun_m_1082_16_alg».proof.Proof.Gen.KernelIdeal.Skeleton
import proofs.«147178_g53772990545976_cont_sun_m_1082_16_alg».proof.Proof.LibPlainDot
import proofs.«147178_g53772990545976_cont_sun_m_1082_16_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Cert.Gcn
open Idealize.ShloMosaic Idealize.ShloMosaic.ValueIdx

/-- The printed dimension numbers of the two products are the plain ones. -/
theorem dotX_plain : dot_S10000x128_S128x128_S10000x128_1_0_0_1_n_n = DotDims.plain 10000 128 128 := rfl
theorem dotA_plain : dot_S416x10000_S10000x128_S416x128_1_0_0_1_n_n = DotDims.plain 416 10000 128 := rfl

/-- The value stored into the scratch is H = X · W. -/
theorem pay1_eq (X : FVec Ideal S10000x128 .f32) (W : FVec Ideal S128x128 .f32) :
    k0_pay1 (F := Ideal) X W = hidden X W := by
  funext i
  unfold k0_pay1
  rw [shapeCast_self, dotX_plain]
  exact Cert.Proof.PlainDot.matmul_plain_zero none X W i

/-- The value stored into the output block, at an index: one row of the adjacency block against one
    column of the scratch. -/
theorem pay2_apply (Y : FVec Ideal S416x10000 .f32) (S : FVec Ideal S10000x128 .f32) (j : S416x128.Idx) :
    k0_pay2 (F := Ideal) Y S j = rowRelu (fun k => Y (ix2 (j 0) k)) S (j 1) := by
  unfold k0_pay2 rowRelu
  rw [maximumf_apply, dotA_plain]
  exact congrArg₂ max (Cert.Proof.PlainDot.matmul_plain_zero none Y S j) rfl

/-- Row locality: two adjacency blocks that agree on row `j 0` give the same output entry at `j`. -/
theorem pay2_congr_row (Y Y' : FVec Ideal S416x10000 .f32) (S : FVec Ideal S10000x128 .f32) (j : S416x128.Idx)
    (h : ∀ k : Fin 10000, Y (ix2 (j 0) k) = Y' (ix2 (j 0) k)) :
    k0_pay2 (F := Ideal) Y S j = k0_pay2 (F := Ideal) Y' S j := by
  rw [pay2_apply, pay2_apply]
  exact rowRelu_congr h S (j 1)

end Cert.KernelIdeal.Hand

end
-- ==== Proof.FrameIdeal.lean ====
/-
  The idealized kernel's run, with values: what the result array holds at the end.

  Proof data. The two small operands (features X, weights W) are fetched once and sit whole in their
  buffers at every point. The adjacency buffer holds, at point t, rows 416·t … of the adjacency matrix A
  on the rows that lie inside the matrix (all 416 for t < 24, only 16 at t = 24) and unnamed words on the
  rest. The scratch holds anything before point 0 and H = X · W from then on. The output buffer after the
  body at point t holds, at (r, c), the maximum of zero and the sum over k of (adjacency buffer) (r, k) ·
  H (k, c); only its rows inside the matrix are written back.

  Why unnamed rows do no harm: an output entry in row r reads row r of the adjacency buffer only, and the
  rows written back are exactly the rows that were fetched.

  From blocks to the array: point t writes back rows 416·t … of the result, these row ranges cover all
  10000 rows, and each written block is the corresponding block of the one function `Cert.Gcn.result`.
-/
import proofs.«147178_g53772990545976_cont_sun_m_1082_16_alg».proof.Proof.BodyIdeal
import proofs.«147178_g53772990545976_cont_sun_m_1082_16_alg».proof.Proof.KPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Gcn Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The scratch operand as a memref. -/
abbrev scM : Memref sig .tc .vmem S10000x128 .f32 := Memref.whole cc0_scratch0

/-- Between points the core holds its one scratch buffer at some contents and its generator register at
    some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; rfl

/-! ## The schedule's arithmetic, decided once over the 25 points -/

/-- The branch of the body is taken at point 0 only. -/
theorem hcond : ∀ t : Fin cfg0.N, condFirst (grid0.coords t) ↔ t.val = 0 :=
  (by decide +kernel : ∀ t : Fin grid0.N, condFirst (grid0.coords t) ↔ t.val = 0)

/-- Block indices and cut sizes: the adjacency and output windows move one block of rows per point and
    are cut alike (416 rows, 16 at the last point); the small operands' one block is block 0. -/
theorem sched : ∀ t : Fin cfg0.N,
    win0_3.xsize (grid0.coords t) (0 : Fin 2) = win0_2.xsize (grid0.coords t) (0 : Fin 2)
    ∧ win0_2.xsize (grid0.coords t) (1 : Fin 2) = 10000
    ∧ win0_3.xsize (grid0.coords t) (1 : Fin 2) = 128
    ∧ win0_3.xsize (grid0.coords t) (0 : Fin 2) = (if t.val = 24 then 16 else 416)
    ∧ win0_3.index t (0 : Fin 2) = t.val ∧ win0_3.index t (1 : Fin 2) = 0
    ∧ win0_2.index t (0 : Fin 2) = t.val ∧ win0_2.index t (1 : Fin 2) = 0
    ∧ win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-! ## The proof data -/

/-- Point 0. -/
abbrev t0 : Fin cfg0.N := ⟨0, by decide⟩

/-- What the scratch holds from point 0 on: the product of the two small operands as point 0 finds them. -/
def scr (c : Dev nD) : Vec Ideal S10000x128 .f32 := k0_pay1 (F := Ideal) (iblk m c 0 t0) (iblk m c 1 t0)

/-- The adjacency buffer at point `t`: the block on the rows inside the matrix, the zero word elsewhere
    (a filler: nothing reads it). -/
def adjBuf (c : Dev nD) (t : Fin cfg0.N) : Vec Ideal S416x10000 .f32 :=
  win0_2.fill (grid0.coords t) (fun _ => zeroW) (iblk m c 2 t)

/-- The output buffer after the body at point `t`. -/
def outBuf (c : Dev nD) (t : Fin cfg0.N) : Vec Ideal S416x128 .f32 := k0_pay2 (F := Ideal) (adjBuf m c t) (scr m c)

/-- The invariant before position `n`: anything in the scratch before point 0, then H. -/
def PhiS (c : Dev nD) : ℕ → sProp 𝕄
  | 0 => Pipeline.ΦA spec0 c
  | _ + 1 => iprop(iprop(owns (c : Thread nD τ) scM fullShare (scr m c)) ∗ (∃ r, prngReg c r))

theorem PhiS_zero (c : Dev nD) (n : ℕ) (hz : n = 0) : PhiS m c n = Pipeline.ΦA spec0 c := by subst hz; rfl
theorem PhiS_pos (c : Dev nD) (n : ℕ) (hz : n ≠ 0) :
    PhiS m c n = iprop(iprop(owns (c : Thread nD τ) scM fullShare (scr m c)) ∗ (∃ r, prngReg c r)) := by
  cases n with
  | zero => exact absurd rfl hz
  | succ n => rfl

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBuf m c t
    | ⟨3, _⟩ => outBuf m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = adjBuf m c t := by dsimp only [dats]
theorem after0_3 (c : Dev nD) (t : Fin cfg0.N) : (dats m 0 c).after 3 t = outBuf m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) :
    (dats m 0 c).before 2 t d = win0_2.fill (grid0.coords t) d (iblk m c 2 t) := by
  unfold Dat.before; rw [if_pos (fetch0_2 t)]; rfl

/-! ## Rows past the matrix's end do not reach the rows written back -/

/-- The part of the output buffer that is written back does not depend on what the adjacency buffer holds
    outside the fetched part: a written-back row is a fetched row, and an output entry reads its own row of
    the adjacency buffer only. -/
theorem cut_pay2_indep (i : grid0.Coords) (h0 : win0_3.xsize i (0 : Fin 2) = win0_2.xsize i (0 : Fin 2))
    (h1 : win0_2.xsize i (1 : Fin 2) = 10000)
    (d d' : S416x10000.Idx → EReal) (g : (win0_2.xblock i).Idx → EReal) (S : FVec Ideal S10000x128 .f32) :
    win0_3.cut i (k0_pay2 (F := Ideal) (win0_2.fill i d g) S) = win0_3.cut i (k0_pay2 (F := Ideal) (win0_2.fill i d' g) S) := by
  funext j
  show k0_pay2 (F := Ideal) (win0_2.fill i d g) S (win0_3.xinj i j) = k0_pay2 (F := Ideal) (win0_2.fill i d' g) S (win0_3.xinj i j)
  refine pay2_congr_row _ _ S _ (fun k => ?_)
  have hm : win0_2.moved i (ix2 ((win0_3.xinj i j) 0) k) = true := (win0_2.moved_iff i _).mpr fun a => by
    match a with
    | ⟨0, _⟩ => show (j 0).val < win0_2.xsize i (0 : Fin 2); rw [← h0]; exact (j 0).isLt
    | ⟨1, _⟩ => show k.val < win0_2.xsize i (1 : Fin 2); rw [h1]; exact k.isLt
  unfold Window.fill
  rw [dif_pos hm, dif_pos hm]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        ((cfg0.win 2).fill (grid0.coords t) d ((cfg0.win 2).cut (grid0.coords t) ((dats m 0 c).after 2 t))))
    ∗ (∃ d, owns (c : Thread nD τ) (st0_3 t) fullShare
        ((cfg0.win 3).fill (grid0.coords t) d ((cfg0.win 3).cut (grid0.coords t) ((dats m 0 c).after 3 t)))))

/-- The output buffer as the body leaves it, whatever filled the adjacency buffer's unfetched rows, is the
    named output buffer on the rows written back. -/
theorem out_leaves (c : Dev nD) (t : Fin cfg0.N) (d2 : S416x10000.Idx → EReal) :
    win0_3.fill (grid0.coords t) (k0_pay2 (F := Ideal) (win0_2.fill (grid0.coords t) d2 (iblk m c 2 t)) (scr m c))
        (win0_3.cut (grid0.coords t) (outBuf m c t))
      = k0_pay2 (F := Ideal) (win0_2.fill (grid0.coords t) d2 (iblk m c 2 t)) (scr m c) :=
  win0_3.fill_congr_cut (grid0.coords t)
    (cut_pay2_indep (grid0.coords t) (sched t).1 (sched t).2.1 d2 (fun _ => zeroW) (iblk m c 2 t) (scr m c))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = PhiS m c (t.val + 1) from rfl,
    show (dats m 0 c).Φ t.castSucc = PhiS m c t.val from rfl,
    show PhiS m c (t.val + 1) = iprop(iprop(owns (c : Thread nD τ) scM fullShare (scr m c)) ∗ (∃ r, prngReg c r)) from rfl]
  by_cases hz : t.val = 0
  · rw [PhiS_zero m c _ hz, PhiA_eq]
    have hscr : scr m c = k0_pay1 (F := Ideal) (iblk m c 0 t) (iblk m c 1 t) := by
      rw [show t = t0 from Fin.ext hz]; rfl
    iintro ⟨⟨HS, Hg⟩, Ho, ⟨%d0, H0⟩, ⟨%d1, H1⟩, ⟨%d2, H2⟩, ⟨%d3, H3⟩⟩
    rw [before0_0 m c t d0, before0_1 m c t d1, before0_2 m c t d2]
    iapply (run_first (F := Ideal) c (grid0.coords t) _ _ _ _ _ _ _ _ _ _ ((hcond t).mpr hz) (iblk m c 0 t) (iblk m c 1 t)
      (win0_2.fill (grid0.coords t) d2 (iblk m c 2 t)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    rw [← hscr]
    isplitl [HS Hg]
    · isplitl [HS]; · iexact HS
      iexact Hg
    isplitl [Ho]; · iexact Ho
    isplitl [H0]; · rw [after0_0]; try iexact H0
    isplitl [H1]; · rw [after0_1]; try iexact H1
    isplitl [H2]
    · iexists d2
      rw [after0_2]
      change _ ⊢ owns (c : Thread nD τ) (st0_2 t) fullShare (win0_2.fill (grid0.coords t) d2 (win0_2.cut (grid0.coords t) (win0_2.fill (grid0.coords t) (fun _ => zeroW) (iblk m c 2 t))))
      rw [win0_2.cut_fill]; try iexact H2
    · iexists (k0_pay2 (F := Ideal) (win0_2.fill (grid0.coords t) d2 (iblk m c 2 t)) (scr m c))
      rw [after0_3]
      change _ ⊢ owns (c : Thread nD τ) (st0_3 t) fullShare (win0_3.fill (grid0.coords t) (k0_pay2 (F := Ideal) (win0_2.fill (grid0.coords t) d2 (iblk m c 2 t)) (scr m c)) (win0_3.cut (grid0.coords t) (outBuf m c t)))
      rw [out_leaves]; try iexact H3
  · rw [PhiS_pos m c _ hz]
    iintro ⟨⟨HS, Hg⟩, Ho, ⟨%d0, H0⟩, ⟨%d1, H1⟩, ⟨%d2, H2⟩, ⟨%d3, H3⟩⟩
    rw [before0_0 m c t d0, before0_1 m c t d1, before0_2 m c t d2]
    iapply (run_later (F := Ideal) c (grid0.coords t) _ _ _ _ _ _ _ _ _ _ (fun h => hz ((hcond t).mp h)) (iblk m c 0 t) (iblk m c 1 t)
      (win0_2.fill (grid0.coords t) d2 (iblk m c 2 t)) (scr m c) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · rw [after0_0]; try iexact H0
    isplitl [H1]; · rw [after0_1]; try iexact H1
    isplitl [H2]
    · iexists d2
      rw [after0_2]
      change _ ⊢ owns (c : Thread nD τ) (st0_2 t) fullShare (win0_2.fill (grid0.coords t) d2 (win0_2.cut (grid0.coords t) (win0_2.fill (grid0.coords t) (fun _ => zeroW) (iblk m c 2 t))))
      rw [win0_2.cut_fill]; try iexact H2
    · iexists (k0_pay2 (F := Ideal) (win0_2.fill (grid0.coords t) d2 (iblk m c 2 t)) (scr m c))
      rw [after0_3]
      change _ ⊢ owns (c : Thread nD τ) (st0_3 t) fullShare (win0_3.fill (grid0.coords t) (k0_pay2 (F := Ideal) (win0_2.fill (grid0.coords t) d2 (iblk m c 2 t)) (scr m c)) (win0_3.cut (grid0.coords t) (outBuf m c t)))
      rw [out_leaves]; try iexact H3

theorem body_obligation (c : Dev nD) :
    BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 25 from N_0]; decide), PhiA_eq]
  iintro ⟨HS, Hg⟩
  isplitl [HS]
  · iexists _; iexact HS
  iexact Hg

set_option backward.isDefEq.respectTransparency.types false in
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.KernelIdeal.Hand

end
-- ==== Proof.Final.lean ====
/-
  From blocks to the whole result array, and the idealized kernel's run with its result named.

  Point t writes back rows 416·t … 416·t + 415 of the result (rows 9984 … 9999 at the last point). What it
  writes at row r of the block and column c is the maximum of zero and the sum over k of
  A (416·t + r, k) · H (k, c) with H = X · W, which is `Cert.Gcn.result` at (416·t + r, c). Every row of
  the result lies in the block of point (row / 416). So the array ends holding `Cert.Gcn.result X A W`.
-/
import proofs.«147178_g53772990545976_cont_sun_m_1082_16_alg».proof.Proof.FrameIdeal

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The feature matrix's one block is the whole matrix. -/
theorem iblk0_eq (c : Dev nD) (t : Fin cfg0.N) : (iblk m c 0 t : S10000x128.Idx → EReal) = V m c main_arg0 := by
  obtain ⟨-, -, -, -, -, -, -, -, i00, i01, -, -⟩ := sched t
  funext y
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; rw [i00]; omega
  | ⟨1, _⟩ => show win0_0.index t (1 : Fin 2) * 128 + 1 * (y 1).val = (y 1).val; rw [i01]; omega

/-- The weight matrix's one block is the whole matrix. -/
theorem iblk1_eq (c : Dev nD) (t : Fin cfg0.N) : (iblk m c 1 t : S128x128.Idx → EReal) = V m c main_arg2 := by
  obtain ⟨-, -, -, -, -, -, -, -, -, -, i10, i11⟩ := sched t
  funext y
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; rw [i10]; omega
  | ⟨1, _⟩ => show win0_1.index t (1 : Fin 2) * 128 + 1 * (y 1).val = (y 1).val; rw [i11]; omega

/-- The scratch holds H = X · W of the argument arrays. -/
theorem scr_eq (c : Dev nD) : scr m c = hidden (V m c main_arg0) (V m c main_arg2) := by
  unfold scr; rw [pay1_eq, iblk0_eq, iblk1_eq]

/-- WHAT POINT `t` WRITES BACK is block `t` of the result function of the argument arrays. -/
theorem flushed_eq (c : Dev nD) (t : Fin cfg0.N) :
    (dats m 0 c).flushed 3 t
      = ((cfg0.win 3).blk t).view.read (Elt Ideal) (result (V m c main_arg0) (V m c main_arg1) (V m c main_arg2)) := by
  show (cfg0.win 3).cut (grid0.coords t) ((dats m 0 c).after 3 t) = _
  rw [after0_3]
  obtain ⟨e0, e1, e2, e3, i30, i31, i20, i21, -, -, -, -⟩ := sched t
  funext j
  show k0_pay2 (F := Ideal) (adjBuf m c t) (scr m c) (win0_3.xinj (grid0.coords t) j)
    = result (V m c main_arg0) (V m c main_arg1) (V m c main_arg2) (((cfg0.win 3).blk t).view.emb j)
  rw [pay2_apply, scr_eq]
  unfold result
  have hcol : (win0_3.xinj (grid0.coords t) j) 1 = (((cfg0.win 3).blk t).view.emb j) 1 :=
    Fin.ext (by show (j 1).val = win0_3.index t (1 : Fin 2) * 128 + 1 * (j 1).val; rw [i31]; omega)
  rw [hcol]
  refine rowRelu_congr (fun k => ?_) _ _
  have hm : win0_2.moved (grid0.coords t) (ix2 ((win0_3.xinj (grid0.coords t) j) 0) k) = true :=
    (win0_2.moved_iff (grid0.coords t) _).mpr fun a => by
      match a with
      | ⟨0, _⟩ => show (j 0).val < win0_2.xsize (grid0.coords t) (0 : Fin 2); rw [← e0]; exact (j 0).isLt
      | ⟨1, _⟩ => show k.val < win0_2.xsize (grid0.coords t) (1 : Fin 2); rw [e1]; exact k.isLt
  unfold adjBuf Window.fill
  rw [dif_pos hm]
  show V m c main_arg1 (((cfg0.win 2).blk t).view.emb _) = V m c main_arg1 _
  refine congrArg _ (funext fun a => Fin.ext ?_)
  match a with
  | ⟨0, _⟩ =>
    show win0_2.index t (0 : Fin 2) * 416 + 1 * (j 0).val = win0_3.index t (0 : Fin 2) * 416 + 1 * (j 0).val
    rw [i20, i30]
  | ⟨1, _⟩ => show win0_2.index t (1 : Fin 2) * 10000 + 1 * k.val = k.val; rw [i21]; omega

/-- An index of the result is in point `t`'s written-back block iff each coordinate is in the block's range,
    cut at the array's end. -/
theorem mem_blk3 (t : Fin cfg0.N) (i : S10000x128.Idx) :
    i ∈ ((cfg0.win 3).blk t).view.set ↔ ∀ a : Fin 2, win0_3.index t a * S416x128.size a ≤ (i a).val
      ∧ (i a).val < win0_3.index t a * S416x128.size a + win0_3.xsize (grid0.coords t) a := by
  show i ∈ ((View.whole main_v0).slice (win0_3.rect t)).set ↔ _
  rw [View.set_slice_whole, Rect.mem_set_unit]
  exact Iff.rfl

/-- Every index of the result is in the block of point (row / 416). -/
theorem cover3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : (i 0).val / 416 < cfg0.N := lt_of_lt_of_eq (by omega : (i 0).val / 416 < 25) N_0.symm
  refine ⟨⟨(i 0).val / 416, hN⟩, flush0_3 _, ?_⟩
  rw [mem_blk3]
  obtain ⟨-, -, e2, e3, i30, i31, -, -, -, -, -, -⟩ := sched ⟨(i 0).val / 416, hN⟩
  intro a
  match a with
  | ⟨0, _⟩ =>
    show win0_3.index ⟨(i 0).val / 416, hN⟩ (0 : Fin 2) * 416 ≤ (i 0).val
      ∧ (i 0).val < win0_3.index ⟨(i 0).val / 416, hN⟩ (0 : Fin 2) * 416 + win0_3.xsize (grid0.coords ⟨(i 0).val / 416, hN⟩) (0 : Fin 2)
    rw [i30, e3]
    show (i 0).val / 416 * 416 ≤ (i 0).val ∧ (i 0).val < (i 0).val / 416 * 416 + (if (i 0).val / 416 = 24 then 16 else 416)
    split <;> omega
  | ⟨1, _⟩ =>
    show win0_3.index ⟨(i 0).val / 416, hN⟩ (1 : Fin 2) * 128 ≤ (i 1).val
      ∧ (i 1).val < win0_3.index ⟨(i 0).val / 416, hN⟩ (1 : Fin 2) * 128 + win0_3.xsize (grid0.coords ⟨(i 0).val / 416, hN⟩) (1 : Fin 2)
    rw [i31, e2]; omega

/-- THE RESULT ARRAY after the run. -/
theorem final (c : Dev nD) :
    (dats m 0 c).arrAt 3 cfg0.N = result (V m c main_arg0) (V m c main_arg1) (V m c main_arg2) :=
  (dats m 0 c).arrAt_eq_of_cover 3 _ (fun t _ => flushed_eq m c t) cover3

/-- The frame claim's post. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run with the result named: the result array ends at `result X A W` of the argument arrays, which
    end unchanged. -/
theorem run_value : θ_run defs (onTc (τ := τ) (main (F := Ideal))) ⟨m, fun _ => 0, ρ⟩ (fun r => ∀ c : Dev nD,
      r.2.mem ((c.tc : Thread nD τ).loc main_v0)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final m c),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c)))⟩)
    (run_main m ρ)

end Cert.KernelIdeal.Hand

end
-- ==== Proof.Ref.lean ====
/-
  The reference computes the same function: its two matrix products are the plain ones, so the first is
  H = X · W entry by entry and the second, followed by the maximum with zero, is `Cert.Gcn.result`.
-/
import proofs.«147178_g53772990545976_cont_sun_m_1082_16_alg».proof.Proof.Gen.ReferenceIdeal.Read
import proofs.«147178_g53772990545976_cont_sun_m_1082_16_alg».proof.Proof.LibPlainDot
import proofs.«147178_g53772990545976_cont_sun_m_1082_16_alg».proof.Proof.Spec

noncomputable section

namespace Cert.ReferenceIdeal.Hand

open Cert.ReferenceIdeal Cert.ReferenceIdeal.Gen Cert.Gcn
open Idealize.ShloMosaic Idealize.ShloMosaic.ValueIdx

/-- The printed dimension numbers of the two products are the plain ones. -/
theorem dotX_plain : dot_S10000x128_S128x128_S10000x128_1_0_0_1_n_n = DotDims.plain 10000 128 128 := rfl
theorem dotA_plain : dot_S10000x10000_S10000x128_S10000x128_1_0_0_1_n_n = DotDims.plain 10000 10000 128 := rfl

/-- The first product is H = X · W. -/
theorem hidden_ref (X : FVec Ideal S10000x128 .f32) (W : FVec Ideal S128x128 .f32) :
    Host.dotGeneral (F := Ideal) dot_S10000x128_S128x128_S10000x128_1_0_0_1_n_n none X W = hidden X W := by
  funext i
  simp only [Host.dotGeneral]
  rw [dotX_plain]
  exact Cert.Proof.PlainDot.dotGeneral_plain none _ X W i

/-- The reference's result term is `result X A W`. -/
theorem ref_eq (X : FVec Ideal S10000x128 .f32) (A : FVec Ideal S10000x10000 .f32) (W : FVec Ideal S128x128 .f32) :
    maximumf (Host.dotGeneral (F := Ideal) dot_S10000x10000_S10000x128_S10000x128_1_0_0_1_n_n none A
        (Host.dotGeneral (F := Ideal) dot_S10000x128_S128x128_S10000x128_1_0_0_1_n_n none X W))
      (broadcastInDim S10000x128 ![] bcast_S_S10000x128 (constant (F := Ideal) S_ .f32 0x00000000#32))
      = result X A W := by
  funext i
  rw [hidden_ref, maximumf_apply]
  unfold result rowRelu
  refine congrArg₂ max ?_ ?_
  · simp only [Host.dotGeneral]
    rw [dotA_plain]
    exact Cert.Proof.PlainDot.dotGeneral_plain none _ A (hidden X W) i
  · exact (Cert.ReferenceIdeal.Read.val_main_call0_v0_apply (F := Ideal) i).trans
      (Cert.ReferenceIdeal.Read.val_main_call0_cst_apply (F := Ideal) _)

end Cert.ReferenceIdeal.Hand

end
-- ==== Proof.lean ====
/-
  A graph-convolution layer: relu (A · (X · W)) for a 10000 x 10000 adjacency matrix A, a 10000 x 128
  feature matrix X and a 128 x 128 weight matrix W.

  The kernel walks A in 25 blocks of 416 rows (the last has 16 rows inside the matrix). At the first block
  it computes H = X · W once into a scratch buffer; at every block it writes max (A_block · H, 0) to the
  matching rows of the result. The reference computes H = X · W, then A · H, then the maximum with zero.
  On the extended reals both are the same function, `Cert.Gcn.result`: entry (r, c) is the maximum of
  zero and the sum over k of A (r, k) · (sum over j of X (k, j) · W (j, c)). The two sides use the same
  association of the products, so no law beyond reading each product as its sum is needed, and the
  precondition (finite inputs) is never opened.

  The claims: each program runs to the end without a fault and leaves its arguments unchanged; the
  idealization rewrote nothing; and the two idealized programs end with equal results.
-/
import proofs.«147178_g53772990545976_cont_sun_m_1082_16_alg».proof.Defs
import proofs.«147178_g53772990545976_cont_sun_m_1082_16_alg».proof.Proof.Gen.Kernel
import proofs.«147178_g53772990545976_cont_sun_m_1082_16_alg».proof.Proof.Gen.KernelIdeal
import proofs.«147178_g53772990545976_cont_sun_m_1082_16_alg».proof.Proof.Gen.ReferenceIdeal
import proofs.«147178_g53772990545976_cont_sun_m_1082_16_alg».proof.Proof.Gen.Pre_finite_inputs
import proofs.«147178_g53772990545976_cont_sun_m_1082_16_alg».proof.Proof.Gen.ReferenceIdeal.Run
import proofs.«147178_g53772990545976_cont_sun_m_1082_16_alg».proof.Proof.Gen.ReferenceIdeal.Read
import proofs.«147178_g53772990545976_cont_sun_m_1082_16_alg».proof.Proof.FrameBits
import proofs.«147178_g53772990545976_cont_sun_m_1082_16_alg».proof.Proof.Final
import proofs.«147178_g53772990545976_cont_sun_m_1082_16_alg».proof.Proof.Ref
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.Hand.frame (F := Bits) m ρ

/-- The idealized kernel's frame. -/
theorem frame_ki : Cert.frame_KernelIdeal := fun m ρ _ => Cert.KernelIdeal.Hand.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at `Cert.Gcn.result` of the (agreeing) arguments. -/
theorem algebraic : Cert.algebraic_KernelIdeal_ReferenceIdeal := by
  intro m ρ m' ρ' _ hagree
  refine ⟨fun c => Cert.Gcn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
